-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2 : Shape := ⟨2, ![2, 2]⟩
abbrev S_ : Shape := ⟨0, ![]⟩

class Facts : Prop where
  bcast_S_S2x2 : S_.BroadcastsInDim S2x2 (![] : Fin 0 → Fin S2x2.rank)
  reducesTo_S2x2_S_d0_1 : S2x2.ReducesTo [0, 1] S_
  h_S_ : 0 < S_.numel

variable [Facts]

def fn {F : FTy → Type} [FloatOps F] (main_arg0 : FVec F S2x2 .f32) (main_arg1 : FVec F S2x2 .f32) : IVec S_ 1 :=
  let main_v0 : FVec F S2x2 .f32 := Host.absf main_arg0
  let main_cst : FVec F S_ .f32 := constant S_ .f32 0x7F800000#32
  let main_v1 : FVec F S2x2 .f32 := broadcastInDim S2x2 ![] bcast_S_S2x2 main_cst
  let main_v2 : IVec S2x2 1 := cmpf .olt main_v0 main_v1
  let main_c : IVec S_ 1 := constantI S_ 1 1#1
  let main_v3 : IVec S_ 1 := (fun x v => Host.reduce IntOp.andi x v reducesTo_S2x2_S_d0_1 h_S_) main_v2 main_c
  let main_v4 : FVec F S2x2 .f32 := Host.absf main_arg1
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  main_v8
-- ==== Kernel.lean ====
abbrev S2x2 : Shape := ⟨2, ![2, 2]⟩
abbrev S_ : Shape := ⟨0, ![]⟩
abbrev S1x1 : Shape := ⟨2, ![1, 1]⟩

abbrev nBuf : Table → Nat
  | .hbm => 3
  | .local .scScalar .smem => 2
  | _ => 0

abbrev bufTy : (tb : Table) → Fin (nBuf tb) → BufTy
  | .hbm, ⟨0, _⟩ => ⟨S2x2, .f32⟩
  | .hbm, ⟨1, _⟩ => ⟨S2x2, .f32⟩
  | .hbm, ⟨2, _⟩ => ⟨S2x2, .f32⟩
  | .local .scScalar .smem, ⟨0, _⟩ => ⟨S2x2, .f32⟩
  | .local .scScalar .smem, ⟨1, _⟩ => ⟨S2x2, .f32⟩
  | _, _ => ⟨S2x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_arg0_scs : Ref sig .scScalar := ⟨.hbm, 0, rfl⟩
abbrev main_v0_scs : Ref sig .scScalar := ⟨.hbm, 2, rfl⟩
abbrev cc0_scratch0 : Ref sig .scScalar := ⟨.smem, 0, rfl⟩
abbrev cc0_scratch1 : Ref sig .scScalar := ⟨.smem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  inb_S2x2_S1x1_0_0 : ∀ a, (![0, 0] : Fin 2 → Nat) a + S1x1.size a ≤ S2x2.size a
  numel1_S1x1 : S1x1.numel = 1
  inb_S2x2_S1x1_0_1 : ∀ a, (![0, 1] : Fin 2 → Nat) a + S1x1.size a ≤ S2x2.size a
  inb_S2x2_S1x1_1_0 : ∀ a, (![1, 0] : Fin 2 → Nat) a + S1x1.size a ≤ S2x2.size a
  inb_S2x2_S1x1_1_1 : ∀ a, (![1, 1] : Fin 2 → Nat) a + S1x1.size a ≤ S2x2.size a
  hcc0_scratch2 : 0 + S_.numel ≤ 3
  hcc0_scratch3 : 1 + S_.numel ≤ 3
  hcc0_scoped0 : 2 + S_.numel ≤ 3
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scratch2 : DmaSems sig S_ := SemArray.consecutive 0 S_ hcc0_scratch2
abbrev cc0_scratch3 : DmaSems sig S_ := SemArray.consecutive 1 S_ hcc0_scratch3
abbrev cc0_scoped0 : DmaSems sig S_ := SemArray.consecutive 2 S_ hcc0_scoped0

class Facts : Prop extends Facts₀ where

variable [Facts]
-- ==== ReferenceIdeal.lean ====
abbrev S2x2 : Shape := ⟨2, ![2, 2]⟩

abbrev nBuf : Space → Nat
  | .hbm => 3
  | .vmem => 0
  | .smem => 0
  | _ => 0

abbrev bufTy : (tb : Table) → Fin (tcTables nBuf tb) → BufTy
  | .hbm, ⟨0, _⟩ => ⟨S2x2, .f32⟩
  | .hbm, ⟨1, _⟩ => ⟨S2x2, .f32⟩
  | .hbm, ⟨2, _⟩ => ⟨S2x2, .f32⟩
  | _, _ => ⟨S2x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where

variable [Facts₀]

class Facts : Prop extends Facts₀ where

variable [Facts]
-- ==== Proof.SumBits.lean ====
/-
  The sum of two 2×2 matrices on one SparseCore's sequencer: its run, read at the word-level instance.

  The TensorCore starts the one scalar-subcore call and waits for it. SparseCore 0's sequencer copies the first summand
  (the kernel's first operand, @main's second argument) from HBM into its first scratch matrix and the second summand into
  its second, each copy on a semaphore of its own, and waits for both. Then, entry by entry over the four entries, it
  loads the entry of each scratch matrix and stores their sum over the entry of the first; each sum reads what the
  copies landed there, because the four stores touch four different entries. Last it copies the first scratch matrix to
  the result array and waits. Every copy is between two whole arrays of this one thread and is waited for before either
  end is touched again, so the transfers need no schedule: the ghost state is the launch handshakes' beside the
  transfers' counters, and the body is stepped through symbolically.

  What is proved: every weakly fair execution of the device's threads terminates, nothing faulting, with the result
  array at `total` — at (i, j) the scalar sum of the two launch matrices' (i, j) entries — and both arguments as launched.
  The statement is over any float instance; nothing in it depends on what the scalar sum is.
-/
import proofs.«211880_g61933428412103_cont_9to1c4b_568_8_alg».proof.Defs
import Idealize.ShloMosaic.Lib.SparseCore.Launch
import Idealize.ShloMosaic.Lib.StableHlo.Run
import Idealize.ShloMosaic.Lib.Pipeline.Kit
import Idealize.ShloMosaic.Lib.Tactic
import proofs.«211880_g61933428412103_cont_9to1c4b_568_8_alg».proof.Proof.Gen.Kernel
import proofs.«211880_g61933428412103_cont_9to1c4b_568_8_alg».proof.Proof.Gen.Kernel.Skeleton

noncomputable section

namespace Cert.Proof.SumBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the five arrays -/

variable (m : (ℓ : Loc nD τ sig) → Buf (Elt F) ℓ) (ρ : Dev nD → PrngReg)

-- the kernel's operands as its body table passes them: the first summand (the kernel's first operand is @main's second
-- argument), the second summand, the sum's array, and the sequencer's two 2×2 scratch matrices
local notation "aW" => (Memref.whole Cert.Kernel.main_arg1_scs : Memref Cert.Kernel.sig Kind.scScalar Space.hbm Cert.Kernel.S2x2 EltTy.f32)
local notation "bW" => (Memref.whole Cert.Kernel.main_arg0_scs : Memref Cert.Kernel.sig Kind.scScalar Space.hbm Cert.Kernel.S2x2 EltTy.f32)
local notation "oW" => (Memref.whole Cert.Kernel.main_v0_scs : Memref Cert.Kernel.sig Kind.scScalar Space.hbm Cert.Kernel.S2x2 EltTy.f32)
local notation "sA" => (Memref.whole Cert.Kernel.cc0_scratch0 : Memref Cert.Kernel.sig Kind.scScalar Space.smem Cert.Kernel.S2x2 EltTy.f32)
local notation "sB" => (Memref.whole Cert.Kernel.cc0_scratch1 : Memref Cert.Kernel.sig Kind.scScalar Space.smem Cert.Kernel.S2x2 EltTy.f32)
abbrev aLoc (d : Dev nD) : Loc nD τ sig := (SparseCore.T d).loc main_arg1
abbrev bLoc (d : Dev nD) : Loc nD τ sig := (SparseCore.T d).loc main_arg0
abbrev oLoc (d : Dev nD) : Loc nD τ sig := (SparseCore.T d).loc main_v0

variable [FloatOps F]

/-- The two summands whole at their launch contents; the sum's array whole at `f`. -/
abbrev aPts (d : Dev nD) : sProp 𝕄 := aLoc d ↦{fullShare} m (aLoc d)
abbrev bPts (d : Dev nD) : sProp 𝕄 := bLoc d ↦{fullShare} m (bLoc d)
abbrev oPts (d : Dev nD) (f : Buf (Elt F) (oLoc d)) : sProp 𝕄 := oLoc d ↦{fullShare} f

/-- The entrywise sum of the two launch matrices: what the sum's array must hold at the end. -/
def total (d : Dev nD) : Buf (Elt F) (oLoc d) := fun i => Scalar.addf (φ := .f32) (m (aLoc d) i) (m (bLoc d) i)

/-- The call's payloads: the sequencer of SparseCore 0 takes the two summands and the sum's array (at whatever it
    holds) and gives the summands back unchanged with the sum's array at their entrywise sum. -/
def P : (K (F := F)).Pay (nD := nD) (Val := Elt F) (Name := ℕ) (U := UU) where
  st := fun _ d _ => iprop(aPts m d ∗ bPts m d ∗ ∃ f, oPts d f)
  dn := fun _ d _ => iprop(aPts m d ∗ bPts m d ∗ oPts d (total m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body on the one sequencer that runs it -/

section Body

variable (d : Dev nD)

def coordsS (c : Fin (grid0.bound 0)) : grid0.Coords := fun | 0 => c | ⟨_ + 1, h⟩ => absurd h (Nat.not_lt.2 (Nat.le_add_left _ _))

/-- The three cells the body copies onto: one per summand's fetch, one for the write-out. -/
abbrev cellA (c : Fin τ.nSC) : GSem nD τ sig := (S d c, .dma cc0_scratch2.sem)
abbrev cellB (c : Fin τ.nSC) : GSem nD τ sig := (S d c, .dma cc0_scratch3.sem)
abbrev cellO (c : Fin τ.nSC) : GSem nD τ sig := (S d c, .dma cc0_scoped0.sem)

omit [FloatOps F] in
theorem ownSems0_S (c : Fin τ.nSC) :
    (ownSems0 (S d c) : sProp 𝕄)
      = iprop(semVal (cellA d c) 0 ∗ semVal (cellB d c) 0 ∗ semVal (cellO d c) 0
          ∗ bigSep ((((ownCells (S d c)).erase (cellA d c)).erase (cellB d c)).erase (cellO d c)) fun g => semVal g 0) := by
  unfold SparseCore.Cfg.ownSems0
  rw [SparseCore.bigSep_erase' ((mem_ownCells (g := cellA d c)).mpr ⟨rfl, by
      show (SemLoc.dma cc0_scratch2.sem : SemLoc sig).isScoped .scScalar = true; decide⟩),
    SparseCore.bigSep_erase' (Finset.mem_erase.mpr ⟨by simp [cellA, cellB]; decide, (mem_ownCells (g := cellB d c)).mpr ⟨rfl, by
      show (SemLoc.dma cc0_scratch3.sem : SemLoc sig).isScoped .scScalar = true; decide⟩⟩),
    SparseCore.bigSep_erase' (Finset.mem_erase.mpr ⟨by simp [cellB, cellO]; decide, Finset.mem_erase.mpr ⟨by simp [cellA, cellO]; decide,
      (mem_ownCells (g := cellO d c)).mpr ⟨rfl, by show (SemLoc.dma cc0_scoped0.sem : SemLoc sig).isScoped .scScalar = true; decide⟩⟩⟩)]

omit [FloatOps F] in
/-- The two scratch matrices are among the sequencer's own buffers: they, at some contents, and the rest. -/
theorem ownBufs_S (c : Fin τ.nSC) :
    (ownBufs (S d c) : sProp 𝕄)
      = iprop((∃ f, (S d c).loc cc0_scratch0 ↦{fullShare} f) ∗ (∃ f, (S d c).loc cc0_scratch1 ↦{fullShare} f)
          ∗ bigSep (((ownRefs (τ := τ) (.scScalar c)).erase ((Proc.scScalar c).devRef cc0_scratch0)).erase ((Proc.scScalar c).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scScalar c)
    (b := (Proc.scScalar c).devRef cc0_scratch0) rfl)).trans ?_
  rw [SparseCore.bigSep_erase' (Finset.mem_erase.mpr ⟨fun e => absurd (Proc.devRef_injective _ e) (show (cc0_scratch1 : Ref sig .scScalar) ≠ cc0_scratch0 by decide),
    SparseCore.Cfg.mem_ownRefs_of_owner (p := Proc.scScalar c) (b := (Proc.scScalar c).devRef cc0_scratch1) rfl⟩)]

omit [FloatOps F] in
/-- The arrays as the sequencer's memrefs address them are the TensorCore's arrays. -/
theorem pts_a (c : Fin τ.nSC) (f : Buf (Elt F) (aLoc d)) :
    ((aW).view.loc (S d c) ↦{fullShare} f : sProp 𝕄) = aLoc d ↦{fullShare} f := by
  simp only [Memref.view_whole, View.set_whole]
omit [FloatOps F] in
theorem pts_b (c : Fin τ.nSC) (f : Buf (Elt F) (bLoc d)) :
    ((bW).view.loc (S d c) ↦{fullShare} f : sProp 𝕄) = bLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_sA (c : Fin τ.nSC) (f : Buf (Elt F) ((S d c).loc cc0_scratch0)) :
    ((sA).view.loc (S d c) ↦{fullShare} f : sProp 𝕄) = (S d c).loc cc0_scratch0 ↦{fullShare} f := rfl
omit [FloatOps F] in
theorem pts_sB (c : Fin τ.nSC) (f : Buf (Elt F) ((S d c).loc cc0_scratch1)) :
    ((sB).view.loc (S d c) ↦{fullShare} f : sProp 𝕄) = (S d c).loc cc0_scratch1 ↦{fullShare} f := rfl

omit [FloatOps F] in
/-- A 1×1 rectangle has one index: read at its first index, or embedded from any of its indices, it names the same
    entry of the matrix. -/
theorem unit_idx (off : Fin 2 → Nat) (inb : ∀ a, off a + (![1, 1] : Fin 2 → Nat) a ≤ S2x2.size a)
    (h0 : 0 < (Rect.unit (s := S2x2) off ![1, 1] inb).toLoadRect.shape.numel) (x : (Rect.unit (s := S2x2) off ![1, 1] inb).shape.Idx) :
    (Rect.unit (s := S2x2) off ![1, 1] inb).toLoadRect.idx (Shape.Idx.first h0) = (Rect.unit (s := S2x2) off ![1, 1] inb).emb x := by
  show (Rect.unit (s := S2x2) off ![1, 1] inb).toLoadRect.idx (Shape.Idx.first h0) = (Rect.unit (s := S2x2) off ![1, 1] inb).toLoadRect.idx x
  refine congrArg _ (funext fun a => Fin.ext ?_)
  have hlt : (x a).val < (![1, 1] : Fin 2 → Nat) a := (x a).isLt
  have h11 : (![1, 1] : Fin 2 → Nat) a = 1 := by match a with | ⟨0, _⟩ => rfl | ⟨1, _⟩ => rfl
  show 0 = (x a).val
  omega

omit [FloatOps F] in
/-- The entry at row `o 0`, column `o 1` lies in the 1×1 rectangle at those offsets. -/
theorem covered (y : S2x2.Idx) (o : Fin 2 → Nat) (inb : ∀ a, o a + (![1, 1] : Fin 2 → Nat) a ≤ S2x2.size a)
    (e0 : (y 0).val = o 0) (e1 : (y 1).val = o 1) : y ∈ (Rect.unit (s := S2x2) o ![1, 1] inb).set :=
  Rect.mem_set_unit.mpr fun a => by
    have h11 : (![1, 1] : Fin 2 → Nat) a = 1 := by match a with | ⟨0, _⟩ => rfl | ⟨1, _⟩ => rfl
    have : (y a).val = o a := by match a with | ⟨0, _⟩ => exact e0 | ⟨1, _⟩ => exact e1
    omega

/-- SparseCore 0's sequencer thread. -/
abbrev S0 (h : 0 < grid0.bound 0) : Thread nD τ := S d ((⟨0, h⟩ : Fin (grid0.bound 0)).castLE hcore0)

/-- The body on SparseCore 0's sequencer, from the two summands and the result array (at whatever it holds), the
    sequencer's scratch and semaphores and what it owes the launch: it ends with the summands unchanged and the result
    array at `total`. The result array receives the first scratch matrix after four 1×1 stores over the first summand's
    copy; each store's payload is the sum of the two copies' entries at its own place, and the four places cover the
    matrix, so entry by entry that is `total`. -/
theorem body₀ (h : 0 < grid0.bound 0) (O : CellTallies nD τ sig (HIx 1)) (W : Waits sig (HIx 1)) (hO : ∀ g, O g none = 0) :
    iprop(levAts (K (F := F)).L (K (F := F)).lev ∗ emp ∗ (aPts m d ∗ bPts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0__add22 (coordsS ⟨0, h⟩) aW (Memref.isWhole_whole _) bW (Memref.isWhole_whole _) oW (Memref.isWhole_whole _)
            sA (Memref.isWhole_whole _) sB (Memref.isWhole_whole _) cc0_scratch2 cc0_scratch3 cc0_scoped0)
          fun _ => iprop((aPts m d ∗ bPts m d ∗ oPts d (total m d)) ∗ scopedBufs (S0 d h) ∗ scopedSems0 (S0 d h)
            ∗ ∃ W', ⌜∀ p ∈ W', p ∈ W ∨ p.2 = none⌝ ∗ owes (S0 d h) O W') := by
  simp only [cc0__add22_eq_skeleton]; unfold cc0__add22_skel
  simp only [k0_part1_eq_skeleton]; unfold k0_part1_skel
  iintro ⟨#Hlv, -, ⟨Ha, Hb, %fo, Ho⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨HsemA, HsemB, HsemO, Hrest⟩
  ihave Hsb' := ((K (F := F)).scopedBufs_S_elim facts d (((⟨0, h⟩ : Fin (grid0.bound 0))).castLE hcore0)) $$ Hsb
  icases Hsb' with ⟨Hbown, Hbsubs⟩
  ihave Hbown' := (Entails.of_eq (ownBufs_S (F := F) d (((⟨0, h⟩ : Fin (grid0.bound 0))).castLE hcore0))) $$ Hbown
  icases Hbown' with ⟨⟨%fa, HsA⟩, ⟨%fb, HsB⟩, Hbrest⟩
  ihave Hmw := ((K (F := F)).mayWaits_none (thr := S0 d h) hO) $$ Hlv
  ihave Ha' := (Entails.of_eq (pts_a (F := F) d (((⟨0, h⟩ : Fin (grid0.bound 0))).castLE hcore0) _).symm) $$ Ha
  ihave Hb' := (Entails.of_eq (pts_b (F := F) d (((⟨0, h⟩ : Fin (grid0.bound 0))).castLE hcore0) _).symm) $$ Hb
  ihave Ho' := (Entails.of_eq (pts_o (F := F) d (((⟨0, h⟩ : Fin (grid0.bound 0))).castLE hcore0) _).symm) $$ Ho
  ihave HsA' := (Entails.of_eq (pts_sA (F := F) d (((⟨0, h⟩ : Fin (grid0.bound 0))).castLE hcore0) _).symm) $$ HsA
  ihave HsB' := (Entails.of_eq (pts_sB (F := F) d (((⟨0, h⟩ : Fin (grid0.bound 0))).castLE hcore0) _).symm) $$ HsB
  sl_exec
  have hval : View.write (Elt F) (oW).view fo (body₀.sl.dma16 m d h fa fb) Finset.univ = total m d := by
    sl_unfold_run_names
    simp only [Memref.view_whole, View.write_whole_univ, View.read_whole, ReadAs.apply_same]
    funext y
    dsimp only [ReadAs.apply]
    refine (congrFun (View.read_whole (Val := Elt F) cc0_scratch0 _) y).symm.trans
      (View.read_writes_apply_of_pieces (View.whole cc0_scratch0) (m (aLoc d)) (total m d) _ ?_ y ?_)
    · intro p hp x
      simp only [List.mem_cons, List.not_mem_nil, or_false] at hp
      rcases hp with rfl | rfl | rfl | rfl <;>
        exact congrArg₂ (Scalar.addf (φ := .f32)) (congrArg (m (aLoc d)) (unit_idx _ _ _ x)) (congrArg (m (bLoc d)) (unit_idx _ _ _ x))
    · have h0 : (y 0).val < 2 := (y 0).isLt
      have h1 : (y 1).val < 2 := (y 1).isLt
      rcases (by omega : (y 0).val = 0 ∨ (y 0).val = 1) with e0 | e0 <;> rcases (by omega : (y 1).val = 0 ∨ (y 1).val = 1) with e1 | e1
      · exact ⟨_, List.mem_cons_of_mem _ (List.mem_cons_of_mem _ (List.mem_cons_of_mem _ List.mem_cons_self)), covered y ![0, 0] inb_S2x2_S1x1_0_0 e0 e1⟩
      · exact ⟨_, List.mem_cons_of_mem _ (List.mem_cons_of_mem _ List.mem_cons_self), covered y ![0, 1] inb_S2x2_S1x1_0_1 e0 e1⟩
      · exact ⟨_, List.mem_cons_of_mem _ List.mem_cons_self, covered y ![1, 0] inb_S2x2_S1x1_1_0 e0 e1⟩
      · exact ⟨_, List.mem_cons_self, covered y ![1, 1] inb_S2x2_S1x1_1_1 e0 e1⟩
  sl_step
  isplitl [Ha' Hb' Ho']
  · isplitl [Ha']; · iapply (Entails.of_eq (pts_a (F := F) d _ _)); iexact Ha'
    isplitl [Hb']; · iapply (Entails.of_eq (pts_b (F := F) d _ _)); iexact Hb'
    rw [← hval]; iapply (Entails.of_eq (pts_o (F := F) d _ _)); iexact Ho'
  isplitl [HsA' HsB' Hbrest Hbsubs]
  · iapply ((K (F := F)).scopedBufs_S_intro facts d _)
    isplitl [HsA' HsB' Hbrest]
    · rw [ownBufs_S]
      isplitl [HsA']; · iexists _; iapply (Entails.of_eq (pts_sA (F := F) d _ _)); iexact HsA'
      isplitl [HsB']; · iexists _; iapply (Entails.of_eq (pts_sB (F := F) d _ _)); iexact HsB'
      iexact Hbrest
    · iexact Hbsubs
  isplitl [HsemA HsemB HsemO Hrest Hsubs]
  · iapply (SparseCore.Cfg.scopedSems0_S_intro (Val := Elt F) d _)
    isplitl [HsemA HsemB HsemO Hrest]
    · rw [ownSems0_S]
      isplitl [HsemA]; · iexact HsemA
      isplitl [HsemB]; · iexact HsemB
      isplitl [HsemO]; · iexact HsemO
      iexact Hrest
    · iexact Hsubs
  iexists (insert (SemLoc.dma cc0_scoped0.sem, (default : HIx 1)) (insert (SemLoc.dma cc0_scratch3.sem, (default : HIx 1))
    (insert (SemLoc.dma cc0_scratch2.sem, (default : HIx 1)) W))); isplitr
  · ipureintro; intro p hp
    simp only [Finset.mem_insert] at hp
    rcases hp with rfl | rfl | rfl | hp
    · exact .inr rfl
    · exact .inr rfl
    · exact .inr rfl
    · exact .inl hp
  · iexact HO

end Body

/-! ## The launch theorem's obligation -/

theorem defs₀_scalar (c : Fin τ.nSC) :
    defs₀ (F := F) (.scScalar c) 0 ()
      = SparseCore.onCore hcore0 (fun c => cc0__add22 (coordsS c) aW (Memref.isWhole_whole _) bW (Memref.isWhole_whole _) oW (Memref.isWhole_whole _)
          sA (Memref.isWhole_whole _) sB (Memref.isWhole_whole _) cc0_scratch2 cc0_scratch3 cc0_scoped0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The scalar call's obligation: its one sequencer runs the body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact (body₀ m d h O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore: the call, and nothing else -/

omit [FloatOps F] in
theorem unscopedBufs_eq (d : Dev nD) (W : (b : Ref sig .tc) → Buf (Elt F) ((d.tc : Thread nD τ).loc b)) :
    (unscopedBufs d W : sProp 𝕄) = iprop((bLoc d ↦{fullShare} W main_arg0) ∗ (aLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for its one SparseCore, and what it hands back. -/
theorem st0_eq (d : Dev nD) : (bigSep Finset.univ fun c : Fin ((K (F := F)).nCore 0) => (P m).st 0 d c) = iprop(aPts m d ∗ bPts m d ∗ ∃ f, oPts d f) := by
  show (bigSep (Finset.univ : Finset (Fin 1)) fun _ => iprop(aPts m d ∗ bPts m d ∗ ∃ f, oPts d f)) = _
  rw [show (Finset.univ : Finset (Fin 1)) = {0} by decide, bigSep_singleton]
theorem dn0_eq (d : Dev nD) : (bigSep Finset.univ fun c : Fin ((K (F := F)).nCore 0) => (P m).dn 0 d c) = iprop(aPts m d ∗ bPts m d ∗ oPts d (total m d)) := by
  show (bigSep (Finset.univ : Finset (Fin 1)) fun _ => iprop(aPts m d ∗ bPts m d ∗ oPts d (total m d))) = _
  rw [show (Finset.univ : Finset (Fin 1)) = {0} by decide, bigSep_singleton]

/-- What @main leaves the claim: the summands at their launch contents, the sum's array at their entrywise sum. -/
abbrev FIN (d : Dev nD) : sProp 𝕄 := iprop(aPts m d ∗ bPts m d ∗ oPts d (total m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hbd, ⟨Hb, Ha, Ho⟩, -, -⟩, -⟩
  iapply ((K (F := F)).wp_run (D (F := F)) 𝒱 (EH := EH) (P := P m) κ d 0) $$ [Hst Ha Hb Ho]
  isplitr; · iexact Hctx
  isplitl [Hst]; · iexact Hst
  isplitl [Ha Hb Ho]
  · rw [st0_eq]
    isplitl [Ha]; · iexact Ha
    isplitl [Hb]; · iexact Hb
    iexists _; iexact Ho
  iintro ⟨Hst, Hdn⟩
  ihave Hdn' := (Entails.of_eq (dn0_eq m d)) $$ Hdn
  imodintro
  isplitl [Hst]; · iexact Hst
  iexact Hdn'

def fq (d : Dev nD) (s' : Phys nD τ sig (Elt F)) : Prop :=
  s'.mem.mem (oLoc d) = total m d ∧ s'.mem.mem (bLoc d) = m (bLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := total m d)) $$ [HSI Ho]
  · isplitl [HSI] <;> iassumption
  icases H with %h3
  ipureintro
  exact ⟨funext fun i => h3 i (Finset.mem_univ i), funext fun i => h2 i (Finset.mem_univ i), funext fun i => h1 i (Finset.mem_univ i)⟩

/-! ## The program's run -/

/-- The run's post: the result array at the entrywise sum of the launch contents of the two arguments, and both
    arguments unchanged. -/
def QC : PUnit × MemSt nD τ sig (Elt F) → Prop := fun r => ∀ c : Dev nD,
  r.2.mem (oLoc c) = total m c ∧ r.2.mem (bLoc c) = m (bLoc c) ∧ r.2.mem (aLoc c) = m (aLoc c)

/-- Every weakly fair execution of the device's threads terminates, nothing faulting, in a memory where the result
    array holds the entrywise sum of the two arguments and the arguments are as launched. -/
theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Proof.SumBits

end
-- ==== Proof.SumIdeal.lean ====
/-
  The sum of two 2×2 matrices on one SparseCore's sequencer: its run, read at the exact (extended-real) instance.

  The TensorCore starts the one scalar-subcore call and waits for it. SparseCore 0's sequencer copies the first summand
  (the kernel's first operand, @main's second argument) from HBM into its first scratch matrix and the second summand into
  its second, each copy on a semaphore of its own, and waits for both. Then, entry by entry over the four entries, it
  loads the entry of each scratch matrix and stores their sum over the entry of the first; each sum reads what the
  copies landed there, because the four stores touch four different entries. Last it copies the first scratch matrix to
  the result array and waits. Every copy is between two whole arrays of this one thread and is waited for before either
  end is touched again, so the transfers need no schedule: the ghost state is the launch handshakes' beside the
  transfers' counters, and the body is stepped through symbolically.

  What is proved: every weakly fair execution of the device's threads terminates, nothing faulting, with the result
  array at `total` — at (i, j) the scalar sum of the two launch matrices' (i, j) entries — and both arguments as launched.
  The statement is over any float instance; nothing in it depends on what the scalar sum is.
-/
import proofs.«211880_g61933428412103_cont_9to1c4b_568_8_alg».proof.Defs
import Idealize.ShloMosaic.Lib.SparseCore.Launch
import Idealize.ShloMosaic.Lib.StableHlo.Run
import Idealize.ShloMosaic.Lib.Pipeline.Kit
import Idealize.ShloMosaic.Lib.Tactic
import proofs.«211880_g61933428412103_cont_9to1c4b_568_8_alg».proof.Proof.Gen.KernelIdeal
import proofs.«211880_g61933428412103_cont_9to1c4b_568_8_alg».proof.Proof.Gen.KernelIdeal.Skeleton

noncomputable section

namespace Cert.Proof.SumIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the five arrays -/

variable (m : (ℓ : Loc nD τ sig) → Buf (Elt F) ℓ) (ρ : Dev nD → PrngReg)

-- the kernel's operands as its body table passes them: the first summand (the kernel's first operand is @main's second
-- argument), the second summand, the sum's array, and the sequencer's two 2×2 scratch matrices
local notation "aW" => (Memref.whole Cert.KernelIdeal.main_arg1_scs : Memref Cert.KernelIdeal.sig Kind.scScalar Space.hbm Cert.KernelIdeal.S2x2 EltTy.f32)
local notation "bW" => (Memref.whole Cert.KernelIdeal.main_arg0_scs : Memref Cert.KernelIdeal.sig Kind.scScalar Space.hbm Cert.KernelIdeal.S2x2 EltTy.f32)
local notation "oW" => (Memref.whole Cert.KernelIdeal.main_v0_scs : Memref Cert.KernelIdeal.sig Kind.scScalar Space.hbm Cert.KernelIdeal.S2x2 EltTy.f32)
local notation "sA" => (Memref.whole Cert.KernelIdeal.cc0_scratch0 : Memref Cert.KernelIdeal.sig Kind.scScalar Space.smem Cert.KernelIdeal.S2x2 EltTy.f32)
local notation "sB" => (Memref.whole Cert.KernelIdeal.cc0_scratch1 : Memref Cert.KernelIdeal.sig Kind.scScalar Space.smem Cert.KernelIdeal.S2x2 EltTy.f32)
abbrev aLoc (d : Dev nD) : Loc nD τ sig := (SparseCore.T d).loc main_arg1
abbrev bLoc (d : Dev nD) : Loc nD τ sig := (SparseCore.T d).loc main_arg0
abbrev oLoc (d : Dev nD) : Loc nD τ sig := (SparseCore.T d).loc main_v0

variable [FloatOps F]

/-- The two summands whole at their launch contents; the sum's array whole at `f`. -/
abbrev aPts (d : Dev nD) : sProp 𝕄 := aLoc d ↦{fullShare} m (aLoc d)
abbrev bPts (d : Dev nD) : sProp 𝕄 := bLoc d ↦{fullShare} m (bLoc d)
abbrev oPts (d : Dev nD) (f : Buf (Elt F) (oLoc d)) : sProp 𝕄 := oLoc d ↦{fullShare} f

/-- The entrywise sum of the two launch matrices: what the sum's array must hold at the end. -/
def total (d : Dev nD) : Buf (Elt F) (oLoc d) := fun i => Scalar.addf (φ := .f32) (m (aLoc d) i) (m (bLoc d) i)

/-- The call's payloads: the sequencer of SparseCore 0 takes the two summands and the sum's array (at whatever it
    holds) and gives the summands back unchanged with the sum's array at their entrywise sum. -/
def P : (K (F := F)).Pay (nD := nD) (Val := Elt F) (Name := ℕ) (U := UU) where
  st := fun _ d _ => iprop(aPts m d ∗ bPts m d ∗ ∃ f, oPts d f)
  dn := fun _ d _ => iprop(aPts m d ∗ bPts m d ∗ oPts d (total m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body on the one sequencer that runs it -/

section Body

variable (d : Dev nD)

def coordsS (c : Fin (grid0.bound 0)) : grid0.Coords := fun | 0 => c | ⟨_ + 1, h⟩ => absurd h (Nat.not_lt.2 (Nat.le_add_left _ _))

/-- The three cells the body copies onto: one per summand's fetch, one for the write-out. -/
abbrev cellA (c : Fin τ.nSC) : GSem nD τ sig := (S d c, .dma cc0_scratch2.sem)
abbrev cellB (c : Fin τ.nSC) : GSem nD τ sig := (S d c, .dma cc0_scratch3.sem)
abbrev cellO (c : Fin τ.nSC) : GSem nD τ sig := (S d c, .dma cc0_scoped0.sem)

omit [FloatOps F] in
theorem ownSems0_S (c : Fin τ.nSC) :
    (ownSems0 (S d c) : sProp 𝕄)
      = iprop(semVal (cellA d c) 0 ∗ semVal (cellB d c) 0 ∗ semVal (cellO d c) 0
          ∗ bigSep ((((ownCells (S d c)).erase (cellA d c)).erase (cellB d c)).erase (cellO d c)) fun g => semVal g 0) := by
  unfold SparseCore.Cfg.ownSems0
  rw [SparseCore.bigSep_erase' ((mem_ownCells (g := cellA d c)).mpr ⟨rfl, by
      show (SemLoc.dma cc0_scratch2.sem : SemLoc sig).isScoped .scScalar = true; decide⟩),
    SparseCore.bigSep_erase' (Finset.mem_erase.mpr ⟨by simp [cellA, cellB]; decide, (mem_ownCells (g := cellB d c)).mpr ⟨rfl, by
      show (SemLoc.dma cc0_scratch3.sem : SemLoc sig).isScoped .scScalar = true; decide⟩⟩),
    SparseCore.bigSep_erase' (Finset.mem_erase.mpr ⟨by simp [cellB, cellO]; decide, Finset.mem_erase.mpr ⟨by simp [cellA, cellO]; decide,
      (mem_ownCells (g := cellO d c)).mpr ⟨rfl, by show (SemLoc.dma cc0_scoped0.sem : SemLoc sig).isScoped .scScalar = true; decide⟩⟩⟩)]

omit [FloatOps F] in
/-- The two scratch matrices are among the sequencer's own buffers: they, at some contents, and the rest. -/
theorem ownBufs_S (c : Fin τ.nSC) :
    (ownBufs (S d c) : sProp 𝕄)
      = iprop((∃ f, (S d c).loc cc0_scratch0 ↦{fullShare} f) ∗ (∃ f, (S d c).loc cc0_scratch1 ↦{fullShare} f)
          ∗ bigSep (((ownRefs (τ := τ) (.scScalar c)).erase ((Proc.scScalar c).devRef cc0_scratch0)).erase ((Proc.scScalar c).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scScalar c)
    (b := (Proc.scScalar c).devRef cc0_scratch0) rfl)).trans ?_
  rw [SparseCore.bigSep_erase' (Finset.mem_erase.mpr ⟨fun e => absurd (Proc.devRef_injective _ e) (show (cc0_scratch1 : Ref sig .scScalar) ≠ cc0_scratch0 by decide),
    SparseCore.Cfg.mem_ownRefs_of_owner (p := Proc.scScalar c) (b := (Proc.scScalar c).devRef cc0_scratch1) rfl⟩)]

omit [FloatOps F] in
/-- The arrays as the sequencer's memrefs address them are the TensorCore's arrays. -/
theorem pts_a (c : Fin τ.nSC) (f : Buf (Elt F) (aLoc d)) :
    ((aW).view.loc (S d c) ↦{fullShare} f : sProp 𝕄) = aLoc d ↦{fullShare} f := by
  simp only [Memref.view_whole, View.set_whole]
omit [FloatOps F] in
theorem pts_b (c : Fin τ.nSC) (f : Buf (Elt F) (bLoc d)) :
    ((bW).view.loc (S d c) ↦{fullShare} f : sProp 𝕄) = bLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_sA (c : Fin τ.nSC) (f : Buf (Elt F) ((S d c).loc cc0_scratch0)) :
    ((sA).view.loc (S d c) ↦{fullShare} f : sProp 𝕄) = (S d c).loc cc0_scratch0 ↦{fullShare} f := rfl
omit [FloatOps F] in
theorem pts_sB (c : Fin τ.nSC) (f : Buf (Elt F) ((S d c).loc cc0_scratch1)) :
    ((sB).view.loc (S d c) ↦{fullShare} f : sProp 𝕄) = (S d c).loc cc0_scratch1 ↦{fullShare} f := rfl

omit [FloatOps F] in
/-- A 1×1 rectangle has one index: read at its first index, or embedded from any of its indices, it names the same
    entry of the matrix. -/
theorem unit_idx (off : Fin 2 → Nat) (inb : ∀ a, off a + (![1, 1] : Fin 2 → Nat) a ≤ S2x2.size a)
    (h0 : 0 < (Rect.unit (s := S2x2) off ![1, 1] inb).toLoadRect.shape.numel) (x : (Rect.unit (s := S2x2) off ![1, 1] inb).shape.Idx) :
    (Rect.unit (s := S2x2) off ![1, 1] inb).toLoadRect.idx (Shape.Idx.first h0) = (Rect.unit (s := S2x2) off ![1, 1] inb).emb x := by
  show (Rect.unit (s := S2x2) off ![1, 1] inb).toLoadRect.idx (Shape.Idx.first h0) = (Rect.unit (s := S2x2) off ![1, 1] inb).toLoadRect.idx x
  refine congrArg _ (funext fun a => Fin.ext ?_)
  have hlt : (x a).val < (![1, 1] : Fin 2 → Nat) a := (x a).isLt
  have h11 : (![1, 1] : Fin 2 → Nat) a = 1 := by match a with | ⟨0, _⟩ => rfl | ⟨1, _⟩ => rfl
  show 0 = (x a).val
  omega

omit [FloatOps F] in
/-- The entry at row `o 0`, column `o 1` lies in the 1×1 rectangle at those offsets. -/
theorem covered (y : S2x2.Idx) (o : Fin 2 → Nat) (inb : ∀ a, o a + (![1, 1] : Fin 2 → Nat) a ≤ S2x2.size a)
    (e0 : (y 0).val = o 0) (e1 : (y 1).val = o 1) : y ∈ (Rect.unit (s := S2x2) o ![1, 1] inb).set :=
  Rect.mem_set_unit.mpr fun a => by
    have h11 : (![1, 1] : Fin 2 → Nat) a = 1 := by match a with | ⟨0, _⟩ => rfl | ⟨1, _⟩ => rfl
    have : (y a).val = o a := by match a with | ⟨0, _⟩ => exact e0 | ⟨1, _⟩ => exact e1
    omega

/-- SparseCore 0's sequencer thread. -/
abbrev S0 (h : 0 < grid0.bound 0) : Thread nD τ := S d ((⟨0, h⟩ : Fin (grid0.bound 0)).castLE hcore0)

/-- The body on SparseCore 0's sequencer, from the two summands and the result array (at whatever it holds), the
    sequencer's scratch and semaphores and what it owes the launch: it ends with the summands unchanged and the result
    array at `total`. The result array receives the first scratch matrix after four 1×1 stores over the first summand's
    copy; each store's payload is the sum of the two copies' entries at its own place, and the four places cover the
    matrix, so entry by entry that is `total`. -/
theorem body₀ (h : 0 < grid0.bound 0) (O : CellTallies nD τ sig (HIx 1)) (W : Waits sig (HIx 1)) (hO : ∀ g, O g none = 0) :
    iprop(levAts (K (F := F)).L (K (F := F)).lev ∗ emp ∗ (aPts m d ∗ bPts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0__add22 (coordsS ⟨0, h⟩) aW (Memref.isWhole_whole _) bW (Memref.isWhole_whole _) oW (Memref.isWhole_whole _)
            sA (Memref.isWhole_whole _) sB (Memref.isWhole_whole _) cc0_scratch2 cc0_scratch3 cc0_scoped0)
          fun _ => iprop((aPts m d ∗ bPts m d ∗ oPts d (total m d)) ∗ scopedBufs (S0 d h) ∗ scopedSems0 (S0 d h)
            ∗ ∃ W', ⌜∀ p ∈ W', p ∈ W ∨ p.2 = none⌝ ∗ owes (S0 d h) O W') := by
  simp only [cc0__add22_eq_skeleton]; unfold cc0__add22_skel
  simp only [k0_part1_eq_skeleton]; unfold k0_part1_skel
  iintro ⟨#Hlv, -, ⟨Ha, Hb, %fo, Ho⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨HsemA, HsemB, HsemO, Hrest⟩
  ihave Hsb' := ((K (F := F)).scopedBufs_S_elim facts d (((⟨0, h⟩ : Fin (grid0.bound 0))).castLE hcore0)) $$ Hsb
  icases Hsb' with ⟨Hbown, Hbsubs⟩
  ihave Hbown' := (Entails.of_eq (ownBufs_S (F := F) d (((⟨0, h⟩ : Fin (grid0.bound 0))).castLE hcore0))) $$ Hbown
  icases Hbown' with ⟨⟨%fa, HsA⟩, ⟨%fb, HsB⟩, Hbrest⟩
  ihave Hmw := ((K (F := F)).mayWaits_none (thr := S0 d h) hO) $$ Hlv
  ihave Ha' := (Entails.of_eq (pts_a (F := F) d (((⟨0, h⟩ : Fin (grid0.bound 0))).castLE hcore0) _).symm) $$ Ha
  ihave Hb' := (Entails.of_eq (pts_b (F := F) d (((⟨0, h⟩ : Fin (grid0.bound 0))).castLE hcore0) _).symm) $$ Hb
  ihave Ho' := (Entails.of_eq (pts_o (F := F) d (((⟨0, h⟩ : Fin (grid0.bound 0))).castLE hcore0) _).symm) $$ Ho
  ihave HsA' := (Entails.of_eq (pts_sA (F := F) d (((⟨0, h⟩ : Fin (grid0.bound 0))).castLE hcore0) _).symm) $$ HsA
  ihave HsB' := (Entails.of_eq (pts_sB (F := F) d (((⟨0, h⟩ : Fin (grid0.bound 0))).castLE hcore0) _).symm) $$ HsB
  sl_exec
  have hval : View.write (Elt F) (oW).view fo (body₀.sl.dma16 m d h fa fb) Finset.univ = total m d := by
    sl_unfold_run_names
    simp only [Memref.view_whole, View.write_whole_univ, View.read_whole, ReadAs.apply_same]
    funext y
    dsimp only [ReadAs.apply]
    refine (congrFun (View.read_whole (Val := Elt F) cc0_scratch0 _) y).symm.trans
      (View.read_writes_apply_of_pieces (View.whole cc0_scratch0) (m (aLoc d)) (total m d) _ ?_ y ?_)
    · intro p hp x
      simp only [List.mem_cons, List.not_mem_nil, or_false] at hp
      rcases hp with rfl | rfl | rfl | rfl <;>
        exact congrArg₂ (Scalar.addf (φ := .f32)) (congrArg (m (aLoc d)) (unit_idx _ _ _ x)) (congrArg (m (bLoc d)) (unit_idx _ _ _ x))
    · have h0 : (y 0).val < 2 := (y 0).isLt
      have h1 : (y 1).val < 2 := (y 1).isLt
      rcases (by omega : (y 0).val = 0 ∨ (y 0).val = 1) with e0 | e0 <;> rcases (by omega : (y 1).val = 0 ∨ (y 1).val = 1) with e1 | e1
      · exact ⟨_, List.mem_cons_of_mem _ (List.mem_cons_of_mem _ (List.mem_cons_of_mem _ List.mem_cons_self)), covered y ![0, 0] inb_S2x2_S1x1_0_0 e0 e1⟩
      · exact ⟨_, List.mem_cons_of_mem _ (List.mem_cons_of_mem _ List.mem_cons_self), covered y ![0, 1] inb_S2x2_S1x1_0_1 e0 e1⟩
      · exact ⟨_, List.mem_cons_of_mem _ List.mem_cons_self, covered y ![1, 0] inb_S2x2_S1x1_1_0 e0 e1⟩
      · exact ⟨_, List.mem_cons_self, covered y ![1, 1] inb_S2x2_S1x1_1_1 e0 e1⟩
  sl_step
  isplitl [Ha' Hb' Ho']
  · isplitl [Ha']; · iapply (Entails.of_eq (pts_a (F := F) d _ _)); iexact Ha'
    isplitl [Hb']; · iapply (Entails.of_eq (pts_b (F := F) d _ _)); iexact Hb'
    rw [← hval]; iapply (Entails.of_eq (pts_o (F := F) d _ _)); iexact Ho'
  isplitl [HsA' HsB' Hbrest Hbsubs]
  · iapply ((K (F := F)).scopedBufs_S_intro facts d _)
    isplitl [HsA' HsB' Hbrest]
    · rw [ownBufs_S]
      isplitl [HsA']; · iexists _; iapply (Entails.of_eq (pts_sA (F := F) d _ _)); iexact HsA'
      isplitl [HsB']; · iexists _; iapply (Entails.of_eq (pts_sB (F := F) d _ _)); iexact HsB'
      iexact Hbrest
    · iexact Hbsubs
  isplitl [HsemA HsemB HsemO Hrest Hsubs]
  · iapply (SparseCore.Cfg.scopedSems0_S_intro (Val := Elt F) d _)
    isplitl [HsemA HsemB HsemO Hrest]
    · rw [ownSems0_S]
      isplitl [HsemA]; · iexact HsemA
      isplitl [HsemB]; · iexact HsemB
      isplitl [HsemO]; · iexact HsemO
      iexact Hrest
    · iexact Hsubs
  iexists (insert (SemLoc.dma cc0_scoped0.sem, (default : HIx 1)) (insert (SemLoc.dma cc0_scratch3.sem, (default : HIx 1))
    (insert (SemLoc.dma cc0_scratch2.sem, (default : HIx 1)) W))); isplitr
  · ipureintro; intro p hp
    simp only [Finset.mem_insert] at hp
    rcases hp with rfl | rfl | rfl | hp
    · exact .inr rfl
    · exact .inr rfl
    · exact .inr rfl
    · exact .inl hp
  · iexact HO

end Body

/-! ## The launch theorem's obligation -/

theorem defs₀_scalar (c : Fin τ.nSC) :
    defs₀ (F := F) (.scScalar c) 0 ()
      = SparseCore.onCore hcore0 (fun c => cc0__add22 (coordsS c) aW (Memref.isWhole_whole _) bW (Memref.isWhole_whole _) oW (Memref.isWhole_whole _)
          sA (Memref.isWhole_whole _) sB (Memref.isWhole_whole _) cc0_scratch2 cc0_scratch3 cc0_scoped0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The scalar call's obligation: its one sequencer runs the body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact (body₀ m d h O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore: the call, and nothing else -/

omit [FloatOps F] in
theorem unscopedBufs_eq (d : Dev nD) (W : (b : Ref sig .tc) → Buf (Elt F) ((d.tc : Thread nD τ).loc b)) :
    (unscopedBufs d W : sProp 𝕄) = iprop((bLoc d ↦{fullShare} W main_arg0) ∗ (aLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for its one SparseCore, and what it hands back. -/
theorem st0_eq (d : Dev nD) : (bigSep Finset.univ fun c : Fin ((K (F := F)).nCore 0) => (P m).st 0 d c) = iprop(aPts m d ∗ bPts m d ∗ ∃ f, oPts d f) := by
  show (bigSep (Finset.univ : Finset (Fin 1)) fun _ => iprop(aPts m d ∗ bPts m d ∗ ∃ f, oPts d f)) = _
  rw [show (Finset.univ : Finset (Fin 1)) = {0} by decide, bigSep_singleton]
theorem dn0_eq (d : Dev nD) : (bigSep Finset.univ fun c : Fin ((K (F := F)).nCore 0) => (P m).dn 0 d c) = iprop(aPts m d ∗ bPts m d ∗ oPts d (total m d)) := by
  show (bigSep (Finset.univ : Finset (Fin 1)) fun _ => iprop(aPts m d ∗ bPts m d ∗ oPts d (total m d))) = _
  rw [show (Finset.univ : Finset (Fin 1)) = {0} by decide, bigSep_singleton]

/-- What @main leaves the claim: the summands at their launch contents, the sum's array at their entrywise sum. -/
abbrev FIN (d : Dev nD) : sProp 𝕄 := iprop(aPts m d ∗ bPts m d ∗ oPts d (total m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hbd, ⟨Hb, Ha, Ho⟩, -, -⟩, -⟩
  iapply ((K (F := F)).wp_run (D (F := F)) 𝒱 (EH := EH) (P := P m) κ d 0) $$ [Hst Ha Hb Ho]
  isplitr; · iexact Hctx
  isplitl [Hst]; · iexact Hst
  isplitl [Ha Hb Ho]
  · rw [st0_eq]
    isplitl [Ha]; · iexact Ha
    isplitl [Hb]; · iexact Hb
    iexists _; iexact Ho
  iintro ⟨Hst, Hdn⟩
  ihave Hdn' := (Entails.of_eq (dn0_eq m d)) $$ Hdn
  imodintro
  isplitl [Hst]; · iexact Hst
  iexact Hdn'

def fq (d : Dev nD) (s' : Phys nD τ sig (Elt F)) : Prop :=
  s'.mem.mem (oLoc d) = total m d ∧ s'.mem.mem (bLoc d) = m (bLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := total m d)) $$ [HSI Ho]
  · isplitl [HSI] <;> iassumption
  icases H with %h3
  ipureintro
  exact ⟨funext fun i => h3 i (Finset.mem_univ i), funext fun i => h2 i (Finset.mem_univ i), funext fun i => h1 i (Finset.mem_univ i)⟩

/-! ## The program's run -/

/-- The run's post: the result array at the entrywise sum of the launch contents of the two arguments, and both
    arguments unchanged. -/
def QC : PUnit × MemSt nD τ sig (Elt F) → Prop := fun r => ∀ c : Dev nD,
  r.2.mem (oLoc c) = total m c ∧ r.2.mem (bLoc c) = m (bLoc c) ∧ r.2.mem (aLoc c) = m (aLoc c)

/-- Every weakly fair execution of the device's threads terminates, nothing faulting, in a memory where the result
    array holds the entrywise sum of the two arguments and the arguments are as launched. -/
theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Proof.SumIdeal

end
-- ==== Proof.lean ====
/-
  The kernel and its reference compute one and the same sum of two 2×2 matrices.

  The kernel runs on one SparseCore's sequencer. It copies the two argument matrices from HBM into two scratch matrices
  of the sequencer's scalar memory and waits for both copies; it replaces each of the four entries of the first scratch
  matrix by its sum with the matching entry of the second; it copies the first scratch matrix to the result array and
  waits for that copy. No entry is loaded or stored while a copy that carries it is pending, so every execution ends
  with result (i, j) = X (i, j) + Y (i, j) and the arguments as launched (`SumBits`, `SumIdeal`: one text at the two
  instances, each run stated with the result named). The reference is the host's entrywise `X + Y`, summands in the same
  order. On the extended reals the sequencer's scalar sum and the host's entrywise sum are both the exact sum, so the
  two results are the same function of the arguments by unfolding alone: no law of arithmetic is used, and the proof
  never opens the precondition (a sum `+∞ + −∞` reads the same on both sides).

  The three frames are the runs with the result forgotten; the kernel's idealization rewrote nothing, so there is
  nothing to preserve.
-/
import proofs.«211880_g61933428412103_cont_9to1c4b_568_8_alg».proof.Defs
import proofs.«211880_g61933428412103_cont_9to1c4b_568_8_alg».proof.Proof.Gen.Kernel
import proofs.«211880_g61933428412103_cont_9to1c4b_568_8_alg».proof.Proof.Gen.KernelIdeal
import proofs.«211880_g61933428412103_cont_9to1c4b_568_8_alg».proof.Proof.Gen.ReferenceIdeal
import proofs.«211880_g61933428412103_cont_9to1c4b_568_8_alg».proof.Proof.Gen.Pre_finite_inputs
import proofs.«211880_g61933428412103_cont_9to1c4b_568_8_alg».proof.Proof.Gen.ReferenceIdeal.Run
import proofs.«211880_g61933428412103_cont_9to1c4b_568_8_alg».proof.Proof.SumBits
import proofs.«211880_g61933428412103_cont_9to1c4b_568_8_alg».proof.Proof.SumIdeal
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ =>
  (θ_run Cert.Kernel.defs _ _).mono (fun _ h c => (h c).2) (SumBits.run_main (F := Bits) m ρ)

/-- So does the kernel read over the extended reals. -/
theorem frame_kernelIdeal : Cert.frame_KernelIdeal := fun m ρ _ =>
  (θ_run Cert.KernelIdeal.defs _ _).mono (fun _ h c => (h c).2) (SumIdeal.run_main (F := Ideal) m ρ)

/-- The reference's frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the result array at X (i, j) + Y (i, j): the kernel's entry is the
    scalar sum of the two launch entries, the reference's the entrywise sum at that index, and both are the exact sum of
    the same two numbers in the same order. -/
theorem algebraic : Cert.algebraic_KernelIdeal_ReferenceIdeal := by
  intro m ρ m' ρ' _ hagree
  refine ⟨fun c => SumIdeal.total (F := Ideal) m c, ?_, ?_⟩
  · exact (θ_run Cert.KernelIdeal.defs _ _).mono (fun _ h c => h c) (SumIdeal.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
